-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x49x4096 : Shape := ⟨3, ![128, 49, 4096]⟩
abbrev S_ : Shape := ⟨0, ![]⟩

class Facts : Prop where
  bcast_S_S128x49x4096 : S_.BroadcastsInDim S128x49x4096 (![] : Fin 0 → Fin S128x49x4096.rank)
  reducesTo_S128x49x4096_S_d0_1_2 : S128x49x4096.ReducesTo [0, 1, 2] S_
  h_S_ : 0 < S_.numel

variable [Facts]

def fn {F : FTy → Type} [FloatOps F] (main_arg0 : FVec F S128x49x4096 .f32) (main_arg1 : IVec S128x49x4096 1) : IVec S_ 1 :=
  let main_v0 : FVec F S128x49x4096 .f32 := Host.absf main_arg0
  let main_cst : FVec F S_ .f32 := constant S_ .f32 0x7F800000#32
  let main_v1 : FVec F S128x49x4096 .f32 := broadcastInDim S128x49x4096 ![] bcast_S_S128x49x4096 main_cst
  let main_v2 : IVec S128x49x4096 1 := cmpf .olt main_v0 main_v1
  let main_c : IVec S_ 1 := constantI S_ 1 1#1
  let main_v3 : IVec S_ 1 := (fun x v => Host.reduce IntOp.andi x v reducesTo_S128x49x4096_S_d0_1_2 h_S_) main_v2 main_c
  main_v3
-- ==== Kernel.lean ====
abbrev S128x49x4096 : Shape := ⟨3, ![128, 49, 4096]⟩
abbrev S16x8x128 : Shape := ⟨3, ![16, 8, 128]⟩
abbrev S8x49x4096 : Shape := ⟨3, ![8, 49, 4096]⟩
abbrev S1x8x128 : Shape := ⟨3, ![1, 8, 128]⟩
abbrev S8x49 : Shape := ⟨2, ![8, 49]⟩
abbrev S8x49x1 : Shape := ⟨3, ![8, 49, 1]⟩
abbrev S8x1 : Shape := ⟨2, ![8, 1]⟩
abbrev S8x1x1 : Shape := ⟨3, ![8, 1, 1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S128x49x4096, .f32⟩
  | .hbm, ⟨1, _⟩ => ⟨S128x49x4096, .i1⟩
  | .hbm, ⟨2, _⟩ => ⟨S128x49x4096, .i32⟩
  | .hbm, ⟨3, _⟩ => ⟨S16x8x128, .f32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x49x4096, .f32⟩
  | .local _ .vmem, ⟨1, _⟩ => ⟨S8x49x4096, .f32⟩
  | .local _ .vmem, ⟨2, _⟩ => ⟨S8x49x4096, .i32⟩
  | .local _ .vmem, ⟨3, _⟩ => ⟨S8x49x4096, .i32⟩
  | .local _ .vmem, ⟨4, _⟩ => ⟨S1x8x128, .f32⟩
  | .local _ .vmem, ⟨5, _⟩ => ⟨S1x8x128, .f32⟩
  | _, _ => ⟨S128x49x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x49x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x49x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S8x49x4096_S8x49x4096_0_0_0 : ∀ a, (![0, 0, 0] : Fin 3 → Nat) a + S8x49x4096.size a ≤ S8x49x4096.size a
  h_S8x49x4096 : 0 < S8x49x4096.numel
  reduces_S8x49x4096_S8x49 : S8x49x4096.Reduces [2] S8x49
  shapeCasts_S8x49_S8x49x1 : S8x49.ShapeCasts S8x49x1
  reduces_S8x49x1_S8x1 : S8x49x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x49x4096.size a ≤ S128x49x4096.size a
  hwx0_0 : ∀ i : grid0.Coords, EltTy.bits .f32 = 32 ∨ (Rect.block (s := S128x49x4096) S8x49x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x49x4096.size a ≤ S128x49x4096.size a
  hwx0_1 : ∀ i : grid0.Coords, EltTy.bits .i32 = 32 ∨ (Rect.block (s := S128x49x4096) S8x49x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S8x49x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x49x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x49x4096 : Shape := ⟨3, ![128, 49, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S128x49x4096, .f32⟩
  | .hbm, ⟨1, _⟩ => ⟨S128x49x4096, .i1⟩
  | .hbm, ⟨2, _⟩ => ⟨S_, .f32⟩
  | .hbm, ⟨3, _⟩ => ⟨S128x49x4096, .f32⟩
  | .hbm, ⟨4, _⟩ => ⟨S128x49x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S128x49x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S128x49x4096 : S_.BroadcastsInDim S128x49x4096 (![] : Fin 0 → Fin S128x49x4096.rank)
  reducesTo_S128x49x4096_S_d0_1_2 : S128x49x4096.ReducesTo [0, 1, 2] S_
  h_S_ : 0 < S_.numel

variable [Facts₀]

class Facts : Prop extends Facts₀ where

variable [Facts]
-- ==== Proof.MaskedSum.lean ====
/-
  The mathematics both programs compute, stated once and over no program.

  Both take an array `x` of shape [128, 49, 4096] and a one-bit mask `v` of the same shape. A masked entry is `x i`
  where the mask bit is set and the zero word elsewhere. The loss is

      θ · ((Σ over every index i of the masked entry) / D)

  on the extended reals, with θ and D the two float words both programs print (D denotes the real 3 · 2²³ = 128 · 48 · 4096).

  One program adds the entries in one sum over all indices; the other first adds the 8 · 49 · 4096 entries of each of 16
  consecutive groups of 8 rows (row `8 b + r`), then the 16 group sums, and applies θ before dividing. Two facts join
  the two spellings:
    * addition on the extended reals is commutative and associative (±∞ included), so a sum over the product of the
      coordinate ranges is the iterated sum, and the rows 0 … 127 are the pairs (b, r) ↦ 8 b + r;
    * division by a NONZERO real is multiplication by its inverse, and multiplication on the extended reals is
      associative: (θ · T) / D = θ · (T / D) for every extended real T, finite or not.
  No finiteness of the entries is used anywhere.
-/
import Idealize.ShloMosaic.PureOps.Ideal
import Idealize.ShloMosaic.PureOps.Ideal.Laws
import Idealize.ShloMosaic.Lib.ValueIdx

noncomputable section

open scoped BigOperators

namespace Cert.MaskedSum

open Idealize.ShloMosaic Idealize.ShloMosaic.ValueIdx

/-! ## Sums over a rank-1 and a rank-3 index set, and over the rows split in groups of 8 -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `8 b + r`: row `r` of the `b`-th group of 8 rows. -/
def row (b : Fin 16) (r : Fin 8) : Fin 128 := ⟨8 * b.val + r.val, by omega⟩

/-- Every row is row `r` of group `b` for exactly one pair (b, r): quotient and remainder by 8. -/
def rowEquiv : Fin 16 × Fin 8 ≃ Fin 128 where
  toFun p := row p.1 p.2
  invFun a := (⟨a.val / 8, by omega⟩, ⟨a.val % 8, by omega⟩)
  left_inv p := Prod.ext (Fin.ext (by show (8 * p.1.val + p.2.val) / 8 = p.1.val; omega))
    (Fin.ext (by show (8 * p.1.val + p.2.val) % 8 = p.2.val; omega))
  right_inv a := Fin.ext (by show 8 * (a.val / 8) + a.val % 8 = a.val; omega)

/-- A sum over the 128 rows is the sum over the 16 groups of the sums over each group's 8 rows. -/
theorem sum_rows {M : Type*} [AddCommMonoid M] (g : Fin 128 → M) :
    ∑ a : Fin 128, g a = ∑ b : Fin 16, ∑ r : Fin 8, g (row b r) := by
  rw [← Equiv.sum_comp rowEquiv g, Fintype.sum_prod_type]
  rfl

/-! ## The masked total and the group sums -/

/-- The arrays' shape. -/
abbrev Arr : Shape := ⟨3, ![128, 49, 4096]⟩

/-- A masked entry: the array's entry where the mask bit is set, the zero word elsewhere. -/
def entry (x : Arr.Idx → EReal) (v : Arr.Idx → BitVec 1) (i : Arr.Idx) : EReal :=
  Scalar.select (v i) (x i) (Ideal.ofBits .f32 0x00000000#32)

/-- The sum of every masked entry. -/
def total (x : Arr.Idx → EReal) (v : Arr.Idx → BitVec 1) : EReal := ∑ i : Arr.Idx, entry x v i

/-- The sum of the masked entries in the 8 rows of group `b`: over the row in the group, then the 49 columns, then the 4096 lanes. -/
def groupSum (x : Arr.Idx → EReal) (v : Arr.Idx → BitVec 1) (b : Fin 16) : EReal :=
  ∑ r : Fin 8, ∑ j : Fin 49, ∑ k : Fin 4096, entry x v (ix3 (row b r) j k)

/-- The 16 group sums add up to the total: the groups partition the rows. -/
theorem sum_groupSum (x : Arr.Idx → EReal) (v : Arr.Idx → BitVec 1) : ∑ b : Fin 16, groupSum x v b = total x v := by
  unfold total groupSum
  rw [sum_idx3 (entry x v), sum_rows fun a => ∑ j : Fin 49, ∑ k : Fin 4096, entry x v (ix3 a j k)]

/-! ## The two constants and the scaling law -/

/-- The divisor's word denotes the real 3 · 2²³ = 25165824 = 128 · 48 · 4096. -/
theorem den_eq : Ideal.ofBits .f32 0x4BC00000#32 = ((25165824 : ℝ) : EReal) := by
  simp [Ideal.ofBits, Ideal.ieee, -EReal.coe_mul]; norm_num

/-- So it is not zero. -/
theorem den_ne_zero : Ideal.ofBits .f32 0x4BC00000#32 ≠ 0 := by
  rw [den_eq]; exact_mod_cast (by norm_num : (25165824 : ℝ) ≠ 0)

/-- Dividing a product by a nonzero extended real divides its second factor: off zero the quotient is the product with the
    inverse, and multiplication is associative — at the infinities too. -/
theorem div_mul_assoc {d : EReal} (hd : d ≠ 0) (a t : EReal) : Ideal.div (a * t) d = a * Ideal.div t d := by
  unfold Ideal.div
  rw [if_neg hd, if_neg hd, mul_assoc]

/-- THE LOSS: θ times the quotient of the masked total by D. -/
def loss (x : Arr.Idx → EReal) (v : Arr.Idx → BitVec 1) : EReal :=
  Ideal.ofBits .f32 0x38D1B717#32 * Ideal.div (total x v) (Ideal.ofBits .f32 0x4BC00000#32)

/-- The one-sum spelling (the zero word is the sum's initial value). -/
theorem loss_of_total (x : Arr.Idx → EReal) (v : Arr.Idx → BitVec 1) :
    Ideal.ofBits .f32 0x38D1B717#32
        * Ideal.div (Ideal.ofBits .f32 0x00000000#32 + ∑ i : Arr.Idx, entry x v i) (Ideal.ofBits .f32 0x4BC00000#32)
      = loss x v := by
  rw [Ideal.ofBits_zero_f32, zero_add]; rfl

/-- The grouped spelling: θ applied to the sum of the 16 group sums, then the division. -/
theorem loss_of_groups (x : Arr.Idx → EReal) (v : Arr.Idx → BitVec 1) :
    Ideal.div (Ideal.ofBits .f32 0x38D1B717#32 * (Ideal.ofBits .f32 0x00000000#32 + ∑ b : Fin 16, groupSum x v b))
        (Ideal.ofBits .f32 0x4BC00000#32)
      = loss x v := by
  rw [Ideal.ofBits_zero_f32, zero_add, sum_groupSum, div_mul_assoc den_ne_zero]; rfl

end Cert.MaskedSum

end
-- ==== Proof.BlockSum.lean ====
/-
  What the kernel body computes from one pair of blocks.

  The body takes a block `X0` of 8 rows of the array and the matching block `X1` of the mask, widened to 32-bit words, and
  stores ONE number at every position of its [1, 8, 128] output tile: the sum over the 8 rows, of the sums over the 49
  columns, of the sums over the 4096 lanes, of `X0` where the mask word is not zero and the zero word elsewhere. The three sums
  are taken one axis at a time, each keeping its axis as a unit axis, so each is a one-axis sum followed by a shape cast that
  changes no row-major position. A one-bit mask widened to a word is nonzero exactly when the bit is set, so when the blocks
  are rows `8 b …  8 b + 7` of the arrays the stored number is the group sum `Cert.MaskedSum.groupSum` of group `b`.
-/
import proofs.«164131_j9500467658939_2_alg».proof.Proof.Gen.KernelIdeal.Skeleton
import proofs.«164131_j9500467658939_2_alg».proof.Proof.MaskedSum
import Idealize.ShloMosaic.Lib.Pipeline.Value
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The three one-axis sums, each kept as a unit axis -/

/-- The sum over the 4096 lanes, kept as a trailing unit axis, at (r, j, 0): position r·49 + j on both sides of the cast. -/
theorem sum_lanes_keep (src : FVec Ideal S8x49x4096 .f32) (h : S8x49x4096.Reduces [2] S8x49) (hφ : FKind.Formats .f32)
    (hacc : (0x00000000#32 : BitVec 32) = FKind.add.neutral .f32 hφ) (hc : S8x49.ShapeCasts S8x49x1) (r : Fin 8) (j : Fin 49) :
    shapeCast S8x49x1 (multiReduction .add [2] S8x49 src 0x00000000#32 h hφ hacc) hc (ix3 r j (0 : Fin 1))
      = ∑ k : Fin 4096, src (ix3 r j k) := by
  refine (shapeCast_apply _ hc (ix3 r j (0 : Fin 1)) (ix2 r j) ?_).trans ?_
  · rw [Shape.rowMajor_val_two, Shape.rowMajor_val_three]
    show r.val * 49 + j.val = (r.val * 49 + j.val) * 1 + 0
    omega
  refine (Ideal.multiReduction_add_single src 0x00000000#32 h hφ hacc (ix2 r j)).trans ?_
  refine Finset.sum_congr rfl fun k _ => congrArg src ?_
  funext a; apply Fin.ext
  match a with
  | ⟨0, _⟩ => rfl
  | ⟨1, _⟩ => rfl
  | ⟨2, _⟩ => rfl

/-- The sum over the 49 columns of a [8, 49, 1] vector, kept as a unit axis, at (r, 0, 0). -/
theorem sum_cols_keep (src : FVec Ideal S8x49x1 .f32) (h : S8x49x1.Reduces [1] S8x1) (hφ : FKind.Formats .f32)
    (hacc : (0x00000000#32 : BitVec 32) = FKind.add.neutral .f32 hφ) (hc : S8x1.ShapeCasts S8x1x1) (r : Fin 8) :
    shapeCast S8x1x1 (multiReduction .add [1] S8x1 src 0x00000000#32 h hφ hacc) hc (ix3 r (0 : Fin 1) (0 : Fin 1))
      = ∑ j : Fin 49, src (ix3 r j (0 : Fin 1)) := by
  refine (shapeCast_apply _ hc (ix3 r (0 : Fin 1) (0 : Fin 1)) (ix2 r (0 : Fin 1)) ?_).trans ?_
  · rw [Shape.rowMajor_val_two, Shape.rowMajor_val_three]
    show r.val * 1 + 0 = (r.val * 1 + 0) * 1 + 0
    omega
  refine (Ideal.multiReduction_add_single src 0x00000000#32 h hφ hacc (ix2 r (0 : Fin 1))).trans ?_
  refine Finset.sum_congr rfl fun j _ => congrArg src ?_
  funext a; apply Fin.ext
  match a with
  | ⟨0, _⟩ => rfl
  | ⟨1, _⟩ => rfl
  | ⟨2, _⟩ => rfl

/-- The sum over the 8 rows of a [8, 1, 1] vector, kept as a unit axis, at (0, 0, 0). -/
theorem sum_rows_keep (src : FVec Ideal S8x1x1 .f32) (h : S8x1x1.Reduces [0] S1x1) (hφ : FKind.Formats .f32)
    (hacc : (0x00000000#32 : BitVec 32) = FKind.add.neutral .f32 hφ) (hc : S1x1.ShapeCasts S1x1x1) :
    shapeCast S1x1x1 (multiReduction .add [0] S1x1 src 0x00000000#32 h hφ hacc) hc (ix3 (0 : Fin 1) (0 : Fin 1) (0 : Fin 1))
      = ∑ r : Fin 8, src (ix3 r (0 : Fin 1) (0 : Fin 1)) := by
  refine (shapeCast_apply _ hc (ix3 (0 : Fin 1) (0 : Fin 1) (0 : Fin 1)) (ix2 (0 : Fin 1) (0 : Fin 1)) ?_).trans ?_
  · rw [Shape.rowMajor_val_two, Shape.rowMajor_val_three]
    rfl
  refine (Ideal.multiReduction_add_single src 0x00000000#32 h hφ hacc (ix2 (0 : Fin 1) (0 : Fin 1))).trans ?_
  refine Finset.sum_congr rfl fun r _ => congrArg src ?_
  funext a; apply Fin.ext
  match a with
  | ⟨0, _⟩ => rfl
  | ⟨1, _⟩ => rfl
  | ⟨2, _⟩ => rfl

/-! ## The stored number -/

/-- Every position of the stored tile holds the triple sum of the selected entries of the two loaded blocks. -/
theorem payload_apply (X0 : Vec Ideal S8x49x4096 .f32) (X1 : Vec Ideal S8x49x4096 .i32) (y : S1x8x128.Idx) :
    k0_pay1 (F := Ideal) X0 X1 y = ∑ r : Fin 8, ∑ j : Fin 49, ∑ k : Fin 4096,
      Scalar.select (IntOp.cmpi .ne (X1 (ix3 r j k)) 0#32) (X0 (ix3 r j k)) (Ideal.ofBits .f32 0x00000000#32) := by
  unfold k0_pay1
  dsimp only
  refine (broadcastTo_apply _ _ y (ix3 (0 : Fin 1) (0 : Fin 1) (0 : Fin 1)) (fun a => by
    match a with
    | ⟨0, _⟩ => rfl
    | ⟨1, _⟩ => rfl
    | ⟨2, _⟩ => rfl)).trans ?_
  refine (congrFun (shapeCast_self _ _) _).trans ?_
  refine (sum_rows_keep _ _ _ _ _).trans ?_
  refine Finset.sum_congr rfl fun r _ => ?_
  refine (sum_cols_keep _ _ _ _ _ r).trans ?_
  refine Finset.sum_congr rfl fun j _ => ?_
  refine (sum_lanes_keep _ _ _ _ _ r j).trans ?_
  rfl

/-- A one-bit word widened to 32 bits is nonzero exactly when the bit is set: the comparison gives the bit back. -/
theorem ne_zero_of_widened : ∀ b : BitVec 1, IntOp.cmpi .ne (b.setWidth 32) 0#32 = b := by decide

/-- When the two blocks are rows `8 b … 8 b + 7` of the array `x` and of the mask `v` widened to words, the stored number is
    the masked sum of group `b`. -/
theorem payload_eq_groupSum (X0 : Vec Ideal S8x49x4096 .f32) (X1 : Vec Ideal S8x49x4096 .i32)
    (x : Cert.MaskedSum.Arr.Idx → EReal) (v : Cert.MaskedSum.Arr.Idx → BitVec 1) (b : Fin 16)
    (h0 : ∀ (r : Fin 8) (j : Fin 49) (k : Fin 4096), X0 (ix3 r j k) = x (ix3 (Cert.MaskedSum.row b r) j k))
    (h1 : ∀ (r : Fin 8) (j : Fin 49) (k : Fin 4096), X1 (ix3 r j k) = (v (ix3 (Cert.MaskedSum.row b r) j k)).setWidth 32)
    (y : S1x8x128.Idx) :
    k0_pay1 (F := Ideal) X0 X1 y = Cert.MaskedSum.groupSum x v b := by
  rw [payload_apply]
  unfold Cert.MaskedSum.groupSum Cert.MaskedSum.entry
  refine Finset.sum_congr rfl fun r _ => Finset.sum_congr rfl fun j _ => Finset.sum_congr rfl fun k _ => ?_
  rw [h0 r j k, h1 r j k, ne_zero_of_widened]

end Cert.KernelIdeal.BlockValue

end
-- ==== Proof.PartialSums.lean ====
/-
  The array the region leaves: sixteen group sums, each spread over its own [1, 8, 128] tile.

  Grid point `t` (of 16) is handed rows `8 t … 8 t + 7` of the array and of the mask — the mask as the host line before the
  region widened it, one 32-bit word per bit — and writes the body's one number over tile `t` of the [16, 8, 128] output. So
  after the region the output array at (b, p, q) holds the masked sum of group `b`, whatever p and q: every point's tile is
  a block of that ONE function, and the sixteen tiles cover the array (the point that covers index (b, p, q) is `b`).
-/
import proofs.«164131_j9500467658939_2_alg».proof.Proof.Gen.KernelIdeal.Frame
import proofs.«164131_j9500467658939_2_alg».proof.Proof.BlockSum
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The zero offsets of the body's whole-buffer accesses. -/
theorem offsets_zero : (![0, 0, 0] : Fin 3 → Nat) = fun _ => 0 := funext fun a => by fin_cases a <;> rfl

/-- The region finds the mask widened: the one host line before it turns each bit into a 32-bit word. -/
theorem widened_mask (c : Dev nD) :
    (V m c main_v0 : S128x49x4096.Idx → BitVec 32) = extui 32 (m ((c : Thread nD τ).loc main_arg1)) natLt_1_32 := by
  show StableHlo.after hostOps0 (fun b => m (c, b)) (Proc.devRef .tc main_v0) = _
  after_results

/-- The printed index maps over the 16 points: every window's block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The output array as one function of the two argument arrays: at (b, p, q) the masked sum of group `b`. -/
def partials (x : Cert.MaskedSum.Arr.Idx → EReal) (v : Cert.MaskedSum.Arr.Idx → BitVec 1) : S16x8x128.Idx → EReal :=
  fun i => Cert.MaskedSum.groupSum x v (i 0)

/-- WHAT POINT `t` WRITES BACK is tile `t` of `partials` of the argument arrays: the body's number is group `t`'s sum, because its
    two input blocks are rows `8 t + r` of the array and of the widened mask. -/
theorem flushed_eq (c : Dev nD) (t : Fin cfg0.N) :
    (dats m 0 c).flushed 2 t = ((cfg0.win 2).blk t).view.read (Elt Ideal)
      (partials (m ((c : Thread nD τ).loc main_arg0)) (m ((c : Thread nD τ).loc main_arg1))) := by
  show (cfg0.win 2).cut (grid0.coords t) ((dats m 0 c).after 2 t) = _
  rw [after0_2]
  unfold out0_2
  rw [View.canon_unit_zero offsets_zero]
  simp only [View.ld_unit_zero (S := S8x49x4096) offsets_zero]
  obtain ⟨e00, e01, e02, e10, e11, e12, e20, e21, e22⟩ := block_index t
  funext y
  show k0_pay1 (iblk m c 0 t) (iblk m c 1 t) y
    = partials (m ((c : Thread nD τ).loc main_arg0)) (m ((c : Thread nD τ).loc main_arg1)) (((cfg0.win 2).blk t).view.emb y)
  refine (BlockValue.payload_eq_groupSum (iblk m c 0 t) (iblk m c 1 t) (m ((c : Thread nD τ).loc main_arg0))
    (m ((c : Thread nD τ).loc main_arg1)) (t.cast N_0) ?_ ?_ y).trans ?_
  · -- rows of the array: block (t, 0, 0) of window 0 at (r, j, k) is the array at (8 t + r, j, k)
    intro r j k
    show V m c main_arg0 (((cfg0.win 0).blk t).view.emb (ix3 r j k)) = _
    rw [V_main_arg0]
    refine congrArg _ ?_
    funext a; apply Fin.ext
    match a with
    | ⟨0, _⟩ => show win0_0.index t (0 : Fin 3) * 8 + 1 * r.val = 8 * t.val + r.val; omega
    | ⟨1, _⟩ => show win0_0.index t (1 : Fin 3) * 49 + 1 * j.val = j.val; omega
    | ⟨2, _⟩ => show win0_0.index t (2 : Fin 3) * 4096 + 1 * k.val = k.val; omega
  · -- rows of the widened mask, likewise
    intro r j k
    show (V m c main_v0 : S128x49x4096.Idx → BitVec 32) (((cfg0.win 1).blk t).view.emb (ix3 r j k)) = _
    rw [widened_mask]
    show (m ((c : Thread nD τ).loc main_arg1) (((cfg0.win 1).blk t).view.emb (ix3 r j k))).setWidth 32 = _
    refine congrArg (fun b : BitVec 1 => b.setWidth 32) (congrArg _ ?_)
    funext a; apply Fin.ext
    match a with
    | ⟨0, _⟩ => show win0_1.index t (0 : Fin 3) * 8 + 1 * r.val = 8 * t.val + r.val; omega
    | ⟨1, _⟩ => show win0_1.index t (1 : Fin 3) * 49 + 1 * j.val = j.val; omega
    | ⟨2, _⟩ => show win0_1.index t (2 : Fin 3) * 4096 + 1 * k.val = k.val; omega
  · -- the tile's first coordinate is the point
    refine congrArg (Cert.MaskedSum.groupSum _ _) (Fin.ext ?_)
    show t.val = win0_2.index t (0 : Fin 3) * 1 + 1 * (y 0).val
    have hy : (y 0).val < 1 := (y 0).isLt
    omega

/-- An index of the output array is in point `t`'s tile iff each coordinate is in the tile's range on its axis. -/
theorem mem_tile (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1).slice (win0_2.rect t)).set ↔ _
  rw [View.set_slice_whole, Rect.mem_set_unit]
  exact Iff.rfl

/-- The sixteen tiles cover the array: index (b, p, q) is in the tile of point `b`, which writes back. -/
theorem tiles_cover (i : S16x8x128.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  have hN : grid0.N = 16 := N_0
  refine ⟨⟨(i 0).val, by show (i 0).val < grid0.N; omega⟩, flush0_2 _, ?_⟩
  rw [mem_tile]
  obtain ⟨-, -, -, -, -, -, e20, e21, e22⟩ := block_index ⟨(i 0).val, by show (i 0).val < grid0.N; omega⟩
  have e20' : win0_2.index ⟨(i 0).val, by show (i 0).val < grid0.N; omega⟩ (0 : Fin 3) = (i 0).val := e20
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 8 ≤ (i 1).val ∧ (i 1).val < win0_2.index _ (1 : Fin 3) * 8 + 8; omega
  | ⟨2, _⟩ => show win0_2.index _ (2 : Fin 3) * 128 ≤ (i 2).val ∧ (i 2).val < win0_2.index _ (2 : Fin 3) * 128 + 128; omega

/-- THE OUTPUT ARRAY after the region is `partials` of the two argument arrays. -/
theorem region_output (c : Dev nD) :
    (dats m 0 c).arrAt 2 cfg0.N
      = partials (m ((c : Thread nD τ).loc main_arg0)) (m ((c : Thread nD τ).loc main_arg1)) :=
  (dats m 0 c).arrAt_eq_of_cover 2 _ (fun t _ => flushed_eq m c t) tiles_cover

end Cert.KernelIdeal.ArrayValue

end
-- ==== Proof.KernelLoss.lean ====
/-
  The kernel program's result is the loss.

  After the region the host lines take entry (b, 0, 0) of each of the sixteen tiles, add the sixteen numbers from the zero word,
  multiply by θ and divide by D. The region's output array holds group `b`'s masked sum all over tile `b`, so the sixteen numbers
  are the sixteen group sums, and the result is the grouped spelling of `Cert.MaskedSum.loss`: θ leaves the division because D is
  a nonzero real, and the group sums add up to the total because the groups partition the rows.
-/
import proofs.«164131_j9500467658939_2_alg».proof.Proof.PartialSums
import Idealize.ShloMosaic.Lib.Pipeline.Value
import Idealize.ShloMosaic.Lib.StableHlo.Run

set_option maxRecDepth 16384

noncomputable section

open scoped BigOperators

namespace Cert.KernelIdeal.RunValue

open Cert.KernelIdeal Cert.KernelIdeal.Gen Cert.KernelIdeal.ArrayValue Idealize.ShloMosaic Idealize.ShloMosaic.TcCoe Idealize.SL.Sem
open Idealize.ShloMosaic.ValueIdx
open Idealize.ShloMosaic.Pipeline (Dat)

/-! ## The host lines after the region, as one function of the region's output array -/

/-- Entry (b, 0, 0) of every tile, as a vector of 16; their sum from the zero word; times θ; divided by D. -/
def tail (A : S16x8x128.Idx → EReal) : S_.Idx → EReal :=
  Host.divf (F := Ideal)
    (mulf (constant (F := Ideal) S_ .f32 0x38D1B717#32)
      (Host.reduceAdd (F := Ideal)
        (shapeCast S16 (extractStridedSlice S16x1x1 ![0, 0, 0] A slices_S16x8x128_S16x1x1_0_0_0) shapeCasts_S16x1x1_S16)
        (constant (F := Ideal) S_ .f32 0x00000000#32) reducesTo_S16_S_d0 h_S_))
    (constant (F := Ideal) S_ .f32 0x4BC00000#32)

/-- The vector of 16 at `b` is the array at (b, 0, 0): the slice starts at zero offsets and the cast keeps position `b`. -/
theorem picked_apply (A : S16x8x128.Idx → EReal) (b : Fin 16) :
    shapeCast S16 (extractStridedSlice S16x1x1 ![0, 0, 0] A slices_S16x8x128_S16x1x1_0_0_0) shapeCasts_S16x1x1_S16 (ix1 b)
      = A (ix3 b (0 : Fin 8) (0 : Fin 128)) := by
  refine (shapeCast_apply _ shapeCasts_S16x1x1_S16 (ix1 b) (ix3 b (0 : Fin 1) (0 : Fin 1)) ?_).trans ?_
  · rw [Shape.rowMajor_val_one, Shape.rowMajor_val_three]
    show (b.val * 1 + 0) * 1 + 0 = b.val
    omega
  refine extractStridedSlice_apply _ A slices_S16x8x128_S16x1x1_0_0_0 (ix3 b (0 : Fin 1) (0 : Fin 1)) (ix3 b (0 : Fin 8) (0 : Fin 128)) fun a => ?_
  match a with
  | ⟨0, _⟩ => show b.val = 0 + b.val; omega
  | ⟨1, _⟩ => rfl
  | ⟨2, _⟩ => rfl

/-- The tail at its one index: θ times (the zero word plus the sum over the 16 tiles of entry (b, 0, 0)), divided by D. -/
theorem tail_apply (A : S16x8x128.Idx → EReal) (i : S_.Idx) :
    tail A i = Ideal.div (Ideal.ofBits .f32 0x38D1B717#32
        * (Ideal.ofBits .f32 0x00000000#32 + ∑ b : Fin 16, A (ix3 b (0 : Fin 8) (0 : Fin 128))))
      (Ideal.ofBits .f32 0x4BC00000#32) := by
  have hsum : Host.reduceAdd (F := Ideal)
        (shapeCast S16 (extractStridedSlice S16x1x1 ![0, 0, 0] A slices_S16x8x128_S16x1x1_0_0_0) shapeCasts_S16x1x1_S16)
        (constant (F := Ideal) S_ .f32 0x00000000#32) reducesTo_S16_S_d0 h_S_ i
      = Ideal.ofBits .f32 0x00000000#32 + ∑ b : Fin 16, A (ix3 b (0 : Fin 8) (0 : Fin 128)) := by
    simp only [Host.reduceAdd, Ideal.hostReduceAdd_def]
    refine (Ideal.hostReduceAdd_total reducesTo_S16_S_d0 (fun b => b.elim0) _ _ i).trans ?_
    refine congrArg (Ideal.ofBits .f32 0x00000000#32 + ·) ?_
    refine (Cert.MaskedSum.sum_idx1 _).trans ?_
    exact Finset.sum_congr rfl fun b _ => picked_apply A b
  show Ideal.div (Ideal.ofBits .f32 0x38D1B717#32 * Host.reduceAdd (F := Ideal) _ _ reducesTo_S16_S_d0 h_S_ i) (Ideal.ofBits .f32 0x4BC00000#32) = _
  rw [hsum]

/-! ## The result buffer after the whole program -/

variable (m : (ℓ : Loc nD τ sig) → Buf (Elt Ideal) ℓ) (ρ : Dev nD → PrngReg)

/-- What the host lines after the region leave in the result buffer: the loss of the two argument arrays. -/
theorem tail_result (c : Dev nD) :
    Pipeline.afterTail₀ cfgs (dats m) 0 (V0 m) [hostOps1] c main_v6
      = fun _ => Cert.MaskedSum.loss (m ((c : Thread nD τ).loc main_arg0)) (m ((c : Thread nD τ).loc main_arg1)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v1)
      = partials (m ((c : Thread nD τ).loc main_arg0)) (m ((c : Thread nD τ).loc main_arg1)) :=
    (Pipeline.withArrays_arr spec0 launch0.win.arr_inj c _ _ 2).trans (region_output m c)
  show tail (Pipeline.withArrays (cfgs 0).spec c (V0 m c) (fun w => (dats m 0 c).arrAt w (cfgs 0).N) (Proc.devRef .tc main_v1)) = _
  rw [hA]
  funext i
  rw [tail_apply]
  exact Cert.MaskedSum.loss_of_groups _ _

/-- THE KERNEL PROGRAM'S RUN, read: every weakly fair execution terminates with the result buffer at the loss of the argument
    arrays and the arguments unchanged. -/
theorem run : θ_run defs (onTc (τ := τ) (main (F := Ideal))) ⟨m, fun _ => 0, ρ⟩ fun r => ∀ c : Dev nD,
      r.2.mem ((c.tc : Thread nD τ).loc main_v6)
        = (fun _ => Cert.MaskedSum.loss (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_result m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.RunValue

end
-- ==== Proof.ReferenceLoss.lean ====
/-
  The reference's result is the loss: read one operation at a time (the generated stages of its run), its scalar result is
  θ · ((0 + Σ over every index of select(valid, masks, 0)) / D) — the one-sum spelling of `Cert.MaskedSum.loss`.
-/
import proofs.«164131_j9500467658939_2_alg».proof.Proof.Gen.ReferenceIdeal.Read
import proofs.«164131_j9500467658939_2_alg».proof.Proof.MaskedSum

noncomputable section

namespace Cert.ReferenceIdeal.RefValue

open Cert.ReferenceIdeal Cert.ReferenceIdeal.Read Idealize.ShloMosaic

/-- The reference's last stage, at its one index, is the loss of the two argument arrays: the multiply by θ, the division by D,
    and the sum over all three axes from the zero word of the masked entries. -/
theorem result_eq (x0 : (⟨S128x49x4096, .f32⟩ : BufTy).Contents (Elt Ideal)) (x1 : (⟨S128x49x4096, .i1⟩ : BufTy).Contents (Elt Ideal)) :
    val_main_v3 (F := Ideal) x0 x1 = fun _ => Cert.MaskedSum.loss x0 x1 := by
  funext i
  rw [val_main_v3_apply, val_main_v2_apply, val_main_v1_apply, val_main_cst_2_apply, val_main_cst_1_apply, val_main_cst_0_apply]
  simp only [val_main_v0_apply, val_main_call0_v0_apply, val_main_cst_apply]
  exact Cert.MaskedSum.loss_of_total x0 x1

end Cert.ReferenceIdeal.RefValue

end
-- ==== Proof.lean ====
/- The proof of `Cert.Claim`: the two programs compute the same masked mean loss on the extended reals.

   Both programs take an array `masks` of shape [128, 49, 4096] and a one-bit array `valid` of the same shape, and return the scalar
   θ · (Σ where(valid, masks, 0)) / D, with θ the float word nearest 0.0001 and D = 128 · 48 · 4096 = 3 · 2²³, an exact float.
   The reference adds all entries in one sum, divides by D, then multiplies by θ. The kernel program splits the 128 rows into 16
   groups of 8; each grid point adds one group's entries (lanes, then columns, then rows) and spreads the number over its own
   [1, 8, 128] tile; the host then picks one entry per tile, adds the sixteen numbers, multiplies by θ and divides by D.

   On the extended reals the two are equal for EVERY input, finite or not:
     * a finite sum may be regrouped freely (addition is commutative and associative, ±∞ included), and the sixteen groups
       partition the rows (Proof/MaskedSum.lean `sum_groupSum`);
     * the kernel's mask arrives widened to 32-bit words and is compared with zero, which gives the original bit back
       (Proof/BlockSum.lean `ne_zero_of_widened`);
     * D is a nonzero real, so dividing by it is multiplying by its inverse, and (θ · T) / D = θ · (T / D) by associativity of
       the product (Proof/MaskedSum.lean `div_mul_assoc`).
   So the precondition (finite inputs) is never opened.

   The modules: MaskedSum (the mathematics, over no program) ← BlockSum (the body's number is a group sum) ← PartialSums (the
   region's output array) ← KernelLoss (the host lines after the region; the kernel program's run), and MaskedSum ← ReferenceLoss
   (the reference's result). The three frames are the generated ones (the reference's is its generated run with the result
   dropped); the idealization rewrote nothing, so `preserves` is `True`. -/
import proofs.«164131_j9500467658939_2_alg».proof.Defs
import proofs.«164131_j9500467658939_2_alg».proof.Proof.Gen.Kernel
import proofs.«164131_j9500467658939_2_alg».proof.Proof.Gen.Kernel.Skeleton
import proofs.«164131_j9500467658939_2_alg».proof.Proof.Gen.Kernel.Launch
import proofs.«164131_j9500467658939_2_alg».proof.Proof.Gen.Kernel.Points
import proofs.«164131_j9500467658939_2_alg».proof.Proof.Gen.Kernel.Frame
import proofs.«164131_j9500467658939_2_alg».proof.Proof.Gen.KernelIdeal
import proofs.«164131_j9500467658939_2_alg».proof.Proof.Gen.KernelIdeal.Skeleton
import proofs.«164131_j9500467658939_2_alg».proof.Proof.Gen.KernelIdeal.Launch
import proofs.«164131_j9500467658939_2_alg».proof.Proof.Gen.KernelIdeal.Points
import proofs.«164131_j9500467658939_2_alg».proof.Proof.Gen.KernelIdeal.Frame
import proofs.«164131_j9500467658939_2_alg».proof.Proof.Gen.ReferenceIdeal
import proofs.«164131_j9500467658939_2_alg».proof.Proof.Gen.Pre_finite_inputs
import proofs.«164131_j9500467658939_2_alg».proof.Proof.Gen.ReferenceIdeal.Run
import proofs.«164131_j9500467658939_2_alg».proof.Proof.Gen.ReferenceIdeal.Read
import proofs.«164131_j9500467658939_2_alg».proof.Proof.KernelLoss
import proofs.«164131_j9500467658939_2_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the two arguments both programs end with the result buffer at the loss of those arguments
    (`Cert.MaskedSum.loss`): the kernel program by its run read through the region and the host lines after it, the reference by
    its run read one operation at a time. -/
theorem algebraic : Cert.algebraic_KernelIdeal_ReferenceIdeal := by
  intro m ρ m' ρ' _ hagree
  refine ⟨fun c _ => Cert.MaskedSum.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
